-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S10000x512 .f32) (main_arg1 : FVec F S10000x10000 .f32) (main_arg2 : FVec F S512x512 .f32) (main_arg3 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S1x512 : Shape := ⟨2, ![1, 512]⟩
abbrev S200x10000 : Shape := ⟨2, ![200, 10000]⟩
abbrev S200x512 : Shape := ⟨2, ![200, 512]⟩
abbrev S200 : Shape := ⟨1, ![200]⟩
abbrev S200x1 : Shape := ⟨2, ![200, 1]⟩

abbrev nBuf : Space → Nat
  | .hbm => 7
  | .vmem => 7
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S1x512, .f32⟩
  | .hbm, ⟨6, _⟩ => ⟨S10000x512, .f32⟩
  | .local _ .vmem, ⟨0, _⟩ => ⟨S200x10000, .f32⟩
  | .local _ .vmem, ⟨1, _⟩ => ⟨S200x10000, .f32⟩
  | .local _ .vmem, ⟨2, _⟩ => ⟨S10000x512, .f32⟩
  | .local _ .vmem, ⟨3, _⟩ => ⟨S512x512, .f32⟩
  | .local _ .vmem, ⟨4, _⟩ => ⟨S1x512, .f32⟩
  | .local _ .vmem, ⟨5, _⟩ => ⟨S200x512, .f32⟩
  | .local _ .vmem, ⟨6, _⟩ => ⟨S200x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![50], ![false]⟩

def k0_off1 (i : grid0.Coords) : Fin 2 → Nat :=
  let arg0 : BitVec 32 := BitVec.ofNat 32 (i 0).val
  let c200_i32 : BitVec 32 := 200#32
  let v3 : BitVec 32 := Scalar.muli arg0 c200_i32
  let v4 : Index := Scalar.indexCast v3
  let c0_3 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S512x512_S512x512_1_0 : S512x512.Transposes [1, 0] S512x512
  shapeCasts_S512_S1x512 : S512.ShapeCasts S1x512
  inb_S200x10000_S200x10000_0_0 : ∀ a, (![0, 0] : Fin 2 → Nat) a + S200x10000.size a ≤ S200x10000.size a
  h_S200x10000 : 0 < S200x10000.numel
  inb_S10000x512_S10000x512_0_0 : ∀ a, (![0, 0] : Fin 2 → Nat) a + S10000x512.size a ≤ S10000x512.size a
  h_S10000x512 : 0 < S10000x512.numel
  h_S200x512 : 0 < S200x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  reduces_S200x512_S200 : S200x512.Reduces [1] S200
  shapeCasts_S200_S200x1 : S200.ShapeCasts S200x1
  broadcasts_S200x1_S200x512 : S200x1.Broadcasts S200x512
  inb_S200x512_S200x512_0_0 : ∀ a, (![0, 0] : Fin 2 → Nat) a + S200x512.size a ≤ S200x512.size a
  dot_S200x10000_S10000x512_S200x512_1_0_0_1_n_n_wf : DotDims.WF S200x10000 S10000x512 S200x512 [1] [0] [0] [1] [] []
  dot_S200x512_S512x512_S200x512_1_0_0_1_n_n_wf : DotDims.WF S200x512 S512x512 S200x512 [1] [0] [0] [1] [] []
  hrank0 : 0 < grid0.rank
  k0_off1_inb : ∀ i : grid0.Coords, ∀ a, (k0_off1 i) a + S200x512.size a ≤ S10000x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x512.size a ≤ S10000x512.size a
  hwx0_1 : ∀ i : grid0.Coords, EltTy.bits .f32 = 32 ∨ (Rect.block (s := S10000x512) S10000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x512.size a ≤ S10000x512.size a
  hwx0_4 : ∀ i : grid0.Coords, EltTy.bits .f32 = 32 ∨ (Rect.block (s := S10000x512) S200x512.size (cc0_transform_4 i) (hinb0_4 i)).WholeWords (EltTy.packing .f32)

variable [Facts₀]

def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf
def dot_S200x512_S512x512_S200x512_1_0_0_1_n_n : DotDims S200x512 S512x512 S200x512 where
  lhsContracting := [1]
  rhsContracting := [0]
  lhsNonContracting := [0]
  rhsNonContracting := [1]
  lhsBatch := []
  rhsBatch := []
  wf := dot_S200x512_S512x512_S200x512_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S200x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S_ : Shape := ⟨0, ![]⟩
abbrev S1x512 : Shape := ⟨2, ![1, 512]⟩
abbrev S10000 : Shape := ⟨1, ![10000]⟩
abbrev S10000x1 : Shape := ⟨2, ![10000, 1]⟩

abbrev nBuf : Space → Nat
  | .hbm => 31
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S10000x10000, .i32⟩
  | .hbm, ⟨5, _⟩ => ⟨S10000x10000, .i32⟩
  | .hbm, ⟨6, _⟩ => ⟨S_, .i32⟩
  | .hbm, ⟨7, _⟩ => ⟨S10000x10000, .i32⟩
  | .hbm, ⟨8, _⟩ => ⟨S10000x10000, .i32⟩
  | .hbm, ⟨9, _⟩ => ⟨S10000x10000, .i1⟩
  | .hbm, ⟨10, _⟩ => ⟨S10000x10000, .f32⟩
  | .hbm, ⟨11, _⟩ => ⟨S10000x10000, .f32⟩
  | .hbm, ⟨12, _⟩ => ⟨S10000x512, .f32⟩
  | .hbm, ⟨13, _⟩ => ⟨S512x512, .f32⟩
  | .hbm, ⟨14, _⟩ => ⟨S10000x512, .f32⟩
  | .hbm, ⟨15, _⟩ => ⟨S1x512, .f32⟩
  | .hbm, ⟨16, _⟩ => ⟨S10000x512, .f32⟩
  | .hbm, ⟨17, _⟩ => ⟨S10000x512, .f32⟩
  | .hbm, ⟨18, _⟩ => ⟨S_, .f32⟩
  | .hbm, ⟨19, _⟩ => ⟨S10000x512, .f32⟩
  | .hbm, ⟨20, _⟩ => ⟨S10000x512, .f32⟩
  | .hbm, ⟨21, _⟩ => ⟨S10000x512, .f32⟩
  | .hbm, ⟨22, _⟩ => ⟨S_, .f32⟩
  | .hbm, ⟨23, _⟩ => ⟨S10000, .f32⟩
  | .hbm, ⟨24, _⟩ => ⟨S10000x1, .f32⟩
  | .hbm, ⟨25, _⟩ => ⟨S10000x1, .f32⟩
  | .hbm, ⟨26, _⟩ => ⟨S_, .f32⟩
  | .hbm, ⟨27, _⟩ => ⟨S10000x1, .f32⟩
  | .hbm, ⟨28, _⟩ => ⟨S10000x1, .f32⟩
  | .hbm, ⟨29, _⟩ => ⟨S10000x512, .f32⟩
  | .hbm, ⟨30, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_v13 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  transposes_S512x512_S512x512_1_0 : S512x512.Transposes [1, 0] S512x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  reducesTo_S10000x512_S10000_d1 : S10000x512.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x512_0_1 : S10000x1.BroadcastsInDim S10000x512 (![0, 1] : Fin 2 → Fin S10000x512.rank)
  dot_S10000x10000_S10000x512_S10000x512_1_0_0_1_n_n_wf : DotDims.WF S10000x10000 S10000x512 S10000x512 [1] [0] [0] [1] [] []
  dot_S10000x512_S512x512_S10000x512_1_0_0_1_n_n_wf : DotDims.WF S10000x512 S512x512 S10000x512 [1] [0] [0] [1] [] []

variable [Facts₀]

def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.Piece.lean ====
/-
  What the kernel's body leaves in its output block at one grid point.

  The body makes one store, over the whole [200, 512] output block; its value is the body's arithmetic applied to what
  the body loaded: the block's 200 rows of edge weights, all the features, the linear map, the bias — each read
  through the whole of its buffer — and the 200 rows of the features that belong to the block's own nodes, read from
  the feature buffer at row offset `200 · i` at grid point `i`. So the block ends holding that arithmetic of the four
  input blocks and of those own rows (`left_eq`), and row `p` of the own rows is row `200 · i + p` of the
  features (`ownRows_apply`).
-/
import proofs.«180947_g8117488189613_cont_9to1_m_843_17_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem

namespace Cert.KernelIdeal.PieceValue

open Cert.KernelIdeal Cert.KernelIdeal.Gen Idealize.ShloMosaic.ValueIdx

variable {F : FTy → Type} [FloatOps F]

theorem hz : (![0, 0] : Fin 2 → Nat) = fun _ => 0 := funext fun a => by fin_cases a <;> rfl

/-- The rows of the features that belong to the block's own nodes at grid point `i`: 200 rows from row `200 · i`. -/
def ownRows (i : grid0.Coords) (x1 : Vec F S10000x512 .f32) : Vec F S200x512 .f32 :=
  View.ld x1 (Rect.unit (s := S10000x512) (k0_off1 i) S200x512.size (k0_off1_inb i))

/-- Row `p`, feature `q` of the own rows is row `200 · i + p`, feature `q` of the features. -/
theorem ownRows_apply (i : grid0.Coords) (x1 : Vec F S10000x512 .f32) (p : Fin 200) (q : Fin 512) (r : Fin 10000)
    (hr : r.val = 200 * (i 0).val + p.val) : ownRows i x1 (ix2 p q) = x1 (ix2 r q) := by
  unfold ownRows
  show x1 ((Rect.unit (s := S10000x512) (k0_off1 i) S200x512.size (k0_off1_inb i)).idx (ix2 p q)) = x1 (ix2 r q)
  refine congrArg x1 (funext fun a => Fin.ext ?_)
  match a with
  | ⟨0, _⟩ =>
    show k0_off1 i 0 + 1 * p.val = r.val
    rw [k0_off1_eq i]
    show 200 * (i 0).val + 1 * p.val = r.val
    omega
  | ⟨1, _⟩ =>
    show k0_off1 i 1 + 1 * q.val = q.val
    rw [k0_off1_eq i]
    show 0 + 1 * q.val = q.val
    omega

/-- The output block after the body: the body's arithmetic of the four input blocks and of the own rows. -/
theorem left_eq (c : Dev nD) (i : grid0.Coords) (arg1 : Memref sig .tc .vmem S200x10000 .f32) (harg1 : arg1.IsWhole)
    (arg2 : Memref sig .tc .vmem S10000x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S200x512 .f32) (harg5 : arg5.IsWhole)
    (x0 : Vec F S200x10000 .f32) (x1 : Vec F S10000x512 .f32) (x2 : Vec F S512x512 .f32) (x3 : Vec F S1x512 .f32) :
    out0_A_4 c i arg1 harg1 arg2 harg2 arg3 harg3 arg4 harg4 arg5 harg5 x0 x1 x2 x3
      = k0_pay1 x0 x1 (ownRows i x1) x2 x3 := by
  unfold out0_A_4
  rw [View.read_writes_eq_canon _ _ _ (cover0_A_4 c i arg1 harg1 arg2 harg2 arg3 harg3 arg4 harg4 arg5 harg5 x0 x1 x2 x3)]
  unfold kernelRun0_A
  dsimp only
  rw [View.canon_unit_zero hz]
  simp only [View.readAt_eq_ld, harg1.read_unread, harg2.read_unread, harg3.read_unread, harg4.read_unread,
    View.ld_unit_zero (S := S200x10000) hz, View.ld_unit_zero (S := S10000x512) hz, View.ld_unit_zero (S := S512x512) hz,
    View.ld_unit_zero (S := S1x512) hz]
  rfl

end Cert.KernelIdeal.PieceValue

end
-- ==== Proof.Blocks.lean ====
/-
  The kernel's input blocks at grid point `t`, read at an index as entries of the four argument arrays.

  The grid has 50 points. At point `t` the edge-weight window holds rows `200 t … 200 t + 199` of the edge weights
  (all 10000 columns); the feature window holds all the features at every point; the third window holds the linear
  map transposed — an array the program computes before the launch, entry `(c, j)` of which is entry `(j, c)` of the
  linear map —; the fourth holds the bias as a one-row matrix, likewise computed before the launch. None of the four
  argument arrays is written before the launch. The output window's block at point `t` is rows `200 t …` of the result.
-/
import proofs.«180947_g8117488189613_cont_9to1_m_843_17_alg».proof.Proof.Piece
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem

namespace Cert.KernelIdeal.BlockReads

open Cert.KernelIdeal Cert.KernelIdeal.Gen Idealize.ShloMosaic.ValueIdx Idealize.ShloMosaic.StableHlo

variable {F : FTy → Type} [FloatOps F]
variable (m : (ℓ : Loc nD τ sig) → Buf (Elt F) ℓ)

/-- The windows' block indices over the grid: the edge-weight and the output windows move down one block of rows per
    point, the others stay; and the point's one coordinate is its number. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ ((grid0.coords t) 0).val = t.val :=
  (by decide +kernel : ∀ t : Fin grid0.N, _)

/-- Row `p` of the edge-weight block at point `t` is row `200 t + p` of the edge weights. -/
theorem edges_apply (c : Dev nD) (t : Fin cfg0.N) (p : Fin 200) (k : Fin 10000) (r : Fin 10000)
    (hr : r.val = 200 * t.val + p.val) :
    (iblk m c 0 t : Vec F S200x10000 .f32) (ix2 p k) = m ((c : Thread nD τ).loc main_arg1) (ix2 r k) := by
  obtain ⟨e0, e1, -⟩ := idx_facts t
  unfold iblk
  rw [View.read_apply]
  show V m c main_arg1 (((cfg0.win 0).blk t).view.emb (ix2 p k)) = _
  rw [V_main_arg1 m c]
  refine congrArg _ (funext fun a => Fin.ext ?_)
  match a with
  | ⟨0, _⟩ => show win0_0.index t (0 : Fin 2) * 200 + 1 * p.val = r.val; rw [e0]; omega
  | ⟨1, _⟩ => show win0_0.index t (1 : Fin 2) * 10000 + 1 * k.val = k.val; rw [e1]; omega

/-- The feature window holds all the features at every point. -/
theorem feats_apply (c : Dev nD) (t : Fin cfg0.N) (k : Fin 10000) (q : Fin 512) :
    (iblk m c 1 t : Vec F S10000x512 .f32) (ix2 k q) = m ((c : Thread nD τ).loc main_arg0) (ix2 k q) := by
  obtain ⟨-, -, e0, e1, -⟩ := idx_facts t
  unfold iblk
  rw [View.read_apply]
  show V m c main_arg0 (((cfg0.win 1).blk t).view.emb (ix2 k q)) = _
  rw [V_main_arg0 m c]
  refine congrArg _ (funext fun a => Fin.ext ?_)
  match a with
  | ⟨0, _⟩ => show win0_1.index t (0 : Fin 2) * 10000 + 1 * k.val = k.val; rw [e0]; omega
  | ⟨1, _⟩ => show win0_1.index t (1 : Fin 2) * 512 + 1 * q.val = q.val; rw [e1]; omega

/-- Row `p` of the block's own rows of the features at point `t` is row `200 t + p` of the features. -/
theorem own_apply (c : Dev nD) (t : Fin cfg0.N) (p : Fin 200) (q : Fin 512) (r : Fin 10000)
    (hr : r.val = 200 * t.val + p.val) :
    PieceValue.ownRows (grid0.coords t) (iblk m c 1 t : Vec F S10000x512 .f32) (ix2 p q)
      = m ((c : Thread nD τ).loc main_arg0) (ix2 r q) := by
  have et : ((grid0.coords t) 0).val = t.val := (idx_facts t).2.2.2.2.2.2.2.2.2.2
  rw [PieceValue.ownRows_apply (grid0.coords t) _ p q r (by rw [et]; exact hr)]
  exact feats_apply m c t r q

/-- The array the third window stages is the linear map transposed (the program computes it before the launch). -/
theorem V_linmap (c : Dev nD) :
    (V m c main_call0_v0 : S512x512.Idx → Elt F .f32)
      = transpose S512x512 [1, 0] (m ((c : Thread nD τ).loc main_arg2)) transposes_S512x512_S512x512_1_0 := by
  dsimp only [Gen.V, Gen.hostOps0]
  after_results
  rfl

/-- Entry `(c', j)` of the third window's block is entry `(j, c')` of the linear map. -/
theorem linmap_apply (c : Dev nD) (t : Fin cfg0.N) (c' : Fin 512) (j : Fin 512) :
    (iblk m c 2 t : Vec F S512x512 .f32) (ix2 c' j) = m ((c : Thread nD τ).loc main_arg2) (ix2 j c') := by
  obtain ⟨-, -, -, -, e0, e1, -⟩ := idx_facts t
  unfold iblk
  rw [View.read_apply]
  show V m c main_call0_v0 (((cfg0.win 2).blk t).view.emb (ix2 c' j)) = _
  rw [V_linmap m c]
  have e : ((cfg0.win 2).blk t).view.emb (ix2 c' j) = ix2 c' j := funext fun a => Fin.ext (by
    match a with
    | ⟨0, _⟩ => show win0_2.index t (0 : Fin 2) * 512 + 1 * c'.val = c'.val; rw [e0]; omega
    | ⟨1, _⟩ => show win0_2.index t (1 : Fin 2) * 512 + 1 * j.val = j.val; rw [e1]; omega)
  rw [e]
  exact transpose_ix2_apply _ transposes_S512x512_S512x512_1_0 c' j

/-- The array the fourth window stages is the bias as a one-row matrix (computed before the launch). -/
theorem V_bias (c : Dev nD) :
    (V m c main_call0_v1 : S1x512.Idx → Elt F .f32)
      = shapeCast S1x512 (m ((c : Thread nD τ).loc main_arg3)) shapeCasts_S512_S1x512 := by
  dsimp only [Gen.V, Gen.hostOps0]
  after_results
  rfl

/-- Entry `(0, j)` of the fourth window's block is entry `j` of the bias. -/
theorem bias_apply (c : Dev nD) (t : Fin cfg0.N) (j : Fin 512) :
    (iblk m c 3 t : Vec F S1x512 .f32) (ix2 (0 : Fin 1) j) = m ((c : Thread nD τ).loc main_arg3) (ix1 j) := by
  obtain ⟨-, -, -, -, -, -, e0, e1, -⟩ := idx_facts t
  unfold iblk
  rw [View.read_apply]
  show V m c main_call0_v1 (((cfg0.win 3).blk t).view.emb (ix2 (0 : Fin 1) j)) = _
  rw [V_bias m c]
  have e : ((cfg0.win 3).blk t).view.emb (ix2 (0 : Fin 1) j) = ix2 (0 : Fin 1) j := funext fun a => Fin.ext (by
    match a with
    | ⟨0, _⟩ => show win0_3.index t (0 : Fin 2) * 1 + 1 * (0 : Fin 1).val = (0 : Fin 1).val; rw [e0]; rfl
    | ⟨1, _⟩ => show win0_3.index t (1 : Fin 2) * 512 + 1 * j.val = j.val; rw [e1]; omega)
  rw [e]
  exact shapeCast_a_1a_apply _ shapeCasts_S512_S1x512 (0 : Fin 1) j

/-- Row `p` of the output block at point `t` sits at row `200 t + p` of the result array. -/
theorem out_emb (t : Fin cfg0.N) (p : Fin 200) (q : Fin 512) (r : Fin 10000) (hr : r.val = 200 * t.val + p.val) :
    ((cfg0.win 4).blk t).view.emb (ix2 p q) = (ix2 r q : S10000x512.Idx) := by
  obtain ⟨-, -, -, -, -, -, -, -, e0, e1, -⟩ := idx_facts t
  refine funext fun a => Fin.ext ?_
  match a with
  | ⟨0, _⟩ => show win0_4.index t (0 : Fin 2) * 200 + 1 * p.val = r.val; rw [e0]; omega
  | ⟨1, _⟩ => show win0_4.index t (1 : Fin 2) * 512 + 1 * q.val = q.val; rw [e1]; omega

end Cert.KernelIdeal.BlockReads

end
-- ==== Proof.Sage.lean ====
/-
  One graph-convolution layer with self loops, as ONE function of the four argument arrays.

  A node `r` has a row of edge weights `a k` over the `n` nodes, and every node `k` a feature vector `x k`.
  The layer (i) gathers: for each feature `c`, the weighted sum of the neighbours' features plus the node's own,
  `∑ k, a k * x k c + x r c`; (ii) applies a linear map and a bias and clamps below at zero,
  `max (∑ c, g c * wt c j + b j) 0`; (iii) divides the row by its Euclidean norm plus a small offset,
  `h j / (√(∑ j', h j' * h j') + ε)`. Every step is the exact operation on the extended reals.

  A program that first adds the identity matrix to the edge weights gathers `∑ k, (a k + [r = k]) * x k c` instead.
  The two gathers agree when the weights and the features are real numbers (`gather_of_loop`): then the product
  distributes over `a k + [r = k]` and the indicator's sum is the one term `x r c`. (On the extended reals the
  distribution fails at the infinities, for example at `a k = ⊥`, `x k c = ⊥` and `r = k`: `(⊥ + 1) * ⊥ = ⊤` while
  `⊥ * ⊥ + ⊥ = ⊥`; so the real-valuedness is needed.)

  `G` reads the layer off the arrays: features `X : [10000, 512]`, edge weights `A : [10000, 10000]`, the linear
  map `W : [512, 512]` stored output-major (`wt c j = W (j, c)`), and the bias `B : [512]`.
-/
import Idealize.ShloMosaic.PureOps.Ideal
import Idealize.ShloMosaic.Lib.ValueIdx

noncomputable section

namespace Cert.Sage

open Idealize.ShloMosaic Idealize.ShloMosaic.ValueIdx

/-! ## The layer on one node -/

/-- The weighted sum of all nodes' feature `c` under the row of weights `a`, plus the node's own feature `s c`. -/
def gather {n d : ℕ} (a : Fin n → EReal) (x : Fin n → Fin d → EReal) (s : Fin d → EReal) (c : Fin d) : EReal :=
  (∑ k : Fin n, a k * x k c) + s c

/-- The same with a self loop written into the weights: the weight of node `r` itself is raised by one. -/
def gatherLoop {n d : ℕ} (a : Fin n → EReal) (x : Fin n → Fin d → EReal) (r : Fin n) (c : Fin d) : EReal :=
  ∑ k : Fin n, (a k + (if r = k then (1 : EReal) else 0)) * x k c

/-- The linear map `wt` (input feature `c` to output feature `j`) and the bias, clamped below at zero. -/
def dense {d e : ℕ} (g : Fin d → EReal) (wt : Fin d → Fin e → EReal) (b : Fin e → EReal) (j : Fin e) : EReal :=
  max ((∑ c : Fin d, g c * wt c j) + b j) 0

/-- A row divided by its Euclidean norm plus the offset `ε` (the single-precision number nearest to 10⁻⁷). -/
def unit {e : ℕ} (h : Fin e → EReal) (j : Fin e) : EReal :=
  Ideal.div (h j) (Ideal.sqrt (∑ j' : Fin e, h j' * h j') + Ideal.ofBits .f32 0x33D6BF95#32)

/-! ## The one law: a self loop in the weights is the node's own features added -/

/-- A finite sum of real numbers, seen in the extended reals, is the sum of the numbers seen there. -/
theorem coe_sum {ι : Type} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- Over the reals: `∑ k, (a k + [r = k]) * x k = ∑ k, a k * x k + x r`. -/
theorem real_loop {n : ℕ} (a x : Fin n → ℝ) (r : Fin n) :
    ∑ k : Fin n, (a k + (if r = k then (1 : ℝ) else 0)) * x k = (∑ k : Fin n, a k * x k) + x r := by
  simp only [add_mul, Finset.sum_add_distrib, ite_mul, one_mul, zero_mul, Finset.sum_ite_eq, Finset.mem_univ, if_true]

/-- With real weights and real features, the gather with the self loop written into the weights is the gather with
    the node's own features added. -/
theorem gather_of_loop {n d : ℕ} (a : Fin n → EReal) (x : Fin n → Fin d → EReal) (r : Fin n) (c : Fin d)
    (ha : ∀ k, ∃ u : ℝ, a k = (u : EReal)) (hx : ∀ k c, ∃ u : ℝ, x k c = (u : EReal)) :
    gatherLoop a x r c = gather a x (x r) c := by
  choose a' ha' using ha
  choose x' hx' using hx
  have hterm : ∀ k : Fin n, (a k + (if r = k then (1 : EReal) else 0)) * x k c
      = (((a' k + (if r = k then (1 : ℝ) else 0)) * x' k c : ℝ) : EReal) := by
    intro k
    rw [ha' k, hx' k c]
    by_cases h : r = k
    · rw [if_pos h, if_pos h, EReal.coe_mul, EReal.coe_add, EReal.coe_one]
    · rw [if_neg h, if_neg h, EReal.coe_mul, EReal.coe_add, EReal.coe_zero]
  have hterm' : ∀ k : Fin n, a k * x k c = ((a' k * x' k c : ℝ) : EReal) := by
    intro k
    rw [ha' k, hx' k c, EReal.coe_mul]
  unfold gatherLoop gather
  rw [Finset.sum_congr rfl (fun k _ => hterm k), Finset.sum_congr rfl (fun k _ => hterm' k),
    ← coe_sum, ← coe_sum, hx' r c, ← EReal.coe_add, real_loop]

/-! ## The layer read off the arrays -/

/-- Output feature `q` of node `r`: the node's row of `A`, all of `X`, the node's own row of `X`, the linear map
    `W` read output-major, and the bias `B`. -/
def layer (X : (⟨2, ![10000, 512]⟩ : Shape).Idx → EReal) (A : (⟨2, ![10000, 10000]⟩ : Shape).Idx → EReal)
    (W : (⟨2, ![512, 512]⟩ : Shape).Idx → EReal) (B : (⟨1, ![512]⟩ : Shape).Idx → EReal)
    (r : Fin 10000) (q : Fin 512) : EReal :=
  unit (dense (gather (fun k : Fin 10000 => A (ix2 r k)) (fun (k : Fin 10000) (c : Fin 512) => X (ix2 k c))
      (fun c : Fin 512 => X (ix2 r c)))
    (fun (c : Fin 512) (j : Fin 512) => W (ix2 j c)) (fun j : Fin 512 => B (ix1 j))) q

/-- The whole result array. -/
def G (X : (⟨2, ![10000, 512]⟩ : Shape).Idx → EReal) (A : (⟨2, ![10000, 10000]⟩ : Shape).Idx → EReal)
    (W : (⟨2, ![512, 512]⟩ : Shape).Idx → EReal) (B : (⟨1, ![512]⟩ : Shape).Idx → EReal) :
    (⟨2, ![10000, 512]⟩ : Shape).Idx → EReal :=
  fun i => layer X A W B (i 0) (i 1)

/-- `G` at the index with coordinates `r`, `q`. -/
theorem G_ix2 (X : (⟨2, ![10000, 512]⟩ : Shape).Idx → EReal) (A : (⟨2, ![10000, 10000]⟩ : Shape).Idx → EReal)
    (W : (⟨2, ![512, 512]⟩ : Shape).Idx → EReal) (B : (⟨1, ![512]⟩ : Shape).Idx → EReal) (r : Fin 10000) (q : Fin 512) :
    G X A W B (ix2 r q) = layer X A W B r q := rfl

end Cert.Sage

end
-- ==== Proof.BlockLayer.lean ====
/-
  What the kernel's body stores for one block of 200 nodes, read at row `p` and output feature `q`, is the layer on
  that node: the block's row of edge weights, all the features, the node's own row of features, the linear map and the bias.
-/
import proofs.«180947_g8117488189613_cont_9to1_m_843_17_alg».proof.Proof.Gen.KernelIdeal.Skeleton
import proofs.«180947_g8117488189613_cont_9to1_m_843_17_alg».proof.Proof.Sage
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BlockValue

open Cert.KernelIdeal Cert.KernelIdeal.Gen Idealize.ShloMosaic Idealize.ShloMosaic.ValueIdx

section Layout
variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Products

theorem agg_lhs_0 (i : S200x512.Idx) (q : dot_S200x10000_S10000x512_S200x512_1_0_0_1_n_n.contr.Idx) :
    (dot_S200x10000_S10000x512_S200x512_1_0_0_1_n_n.lhsIdx i q 0).val = (i 0).val := by
  unfold DotDims.lhsIdx
  rw [dif_neg (show ¬(0 : Fin S200x10000.rank) ∈ dot_S200x10000_S10000x512_S200x512_1_0_0_1_n_n.lhsBatch by decide),
    dif_pos (show (0 : Fin S200x10000.rank) ∈ dot_S200x10000_S10000x512_S200x512_1_0_0_1_n_n.lhsNonContracting by decide)]
  rfl
theorem agg_lhs_1 (i : S200x512.Idx) (q : dot_S200x10000_S10000x512_S200x512_1_0_0_1_n_n.contr.Idx) :
    (dot_S200x10000_S10000x512_S200x512_1_0_0_1_n_n.lhsIdx i q 1).val = (q ⟨0, by decide⟩).val :=
  dot_S200x10000_S10000x512_S200x512_1_0_0_1_n_n.lhsIdx_val_of_single rfl i q
theorem agg_rhs_0 (i : S200x512.Idx) (q : dot_S200x10000_S10000x512_S200x512_1_0_0_1_n_n.contr.Idx) :
    (dot_S200x10000_S10000x512_S200x512_1_0_0_1_n_n.rhsIdx i q 0).val = (q ⟨0, by decide⟩).val :=
  dot_S200x10000_S10000x512_S200x512_1_0_0_1_n_n.rhsIdx_val_of_single rfl i q
theorem agg_rhs_1 (i : S200x512.Idx) (q : dot_S200x10000_S10000x512_S200x512_1_0_0_1_n_n.contr.Idx) :
    (dot_S200x10000_S10000x512_S200x512_1_0_0_1_n_n.rhsIdx i q 1).val = (i 1).val := by
  unfold DotDims.rhsIdx
  rw [dif_neg (show ¬(1 : Fin S10000x512.rank) ∈ dot_S200x10000_S10000x512_S200x512_1_0_0_1_n_n.rhsBatch by decide),
    dif_pos (show (1 : Fin S10000x512.rank) ∈ dot_S200x10000_S10000x512_S200x512_1_0_0_1_n_n.rhsNonContracting by decide)]
  rfl

/-- The first product into the zero accumulator, read at `(p, c)`: row `p` of the left factor against column `c` of the right one. -/
theorem agg_apply (lhs : FVec Ideal S200x10000 .f32) (rhs : FVec Ideal S10000x512 .f32) (p : Fin 200) (c : Fin 512) :
    matmul (F := Ideal) dot_S200x10000_S10000x512_S200x512_1_0_0_1_n_n none lhs rhs (constant S200x512 .f32 0x00000000#32) (ix2 p c)
      = ∑ k : Fin 10000, lhs (ix2 p k) * rhs (ix2 k c) := by
  refine (Ideal.matmul_constant_zero_apply dot_S200x10000_S10000x512_S200x512_1_0_0_1_n_n none lhs rhs (ix2 p c)).trans ?_
  rw [← Equiv.sum_comp (ValueIdx.contrEquiv1 dot_S200x10000_S10000x512_S200x512_1_0_0_1_n_n 10000 rfl rfl).symm]
  refine Finset.sum_congr rfl fun k _ => ?_
  have hk := ValueIdx.contrEquiv1_symm_val dot_S200x10000_S10000x512_S200x512_1_0_0_1_n_n 10000 rfl rfl k
  have el : dot_S200x10000_S10000x512_S200x512_1_0_0_1_n_n.lhsIdx (ix2 p c) ((ValueIdx.contrEquiv1 dot_S200x10000_S10000x512_S200x512_1_0_0_1_n_n 10000 rfl rfl).symm k) = ix2 p k :=
    funext fun a => Fin.ext (by
      match a with
      | ⟨0, _⟩ => exact agg_lhs_0 _ _
      | ⟨1, _⟩ => exact (agg_lhs_1 _ _).trans hk)
  have er : dot_S200x10000_S10000x512_S200x512_1_0_0_1_n_n.rhsIdx (ix2 p c) ((ValueIdx.contrEquiv1 dot_S200x10000_S10000x512_S200x512_1_0_0_1_n_n 10000 rfl rfl).symm k) = ix2 k c :=
    funext fun a => Fin.ext (by
      match a with
      | ⟨0, _⟩ => exact (agg_rhs_0 _ _).trans hk
      | ⟨1, _⟩ => exact agg_rhs_1 _ _)
  rw [el, er]

theorem lin_lhs_0 (i : S200x512.Idx) (q : dot_S200x512_S512x512_S200x512_1_0_0_1_n_n.contr.Idx) :
    (dot_S200x512_S512x512_S200x512_1_0_0_1_n_n.lhsIdx i q 0).val = (i 0).val := by
  unfold DotDims.lhsIdx
  rw [dif_neg (show ¬(0 : Fin S200x512.rank) ∈ dot_S200x512_S512x512_S200x512_1_0_0_1_n_n.lhsBatch by decide),
    dif_pos (show (0 : Fin S200x512.rank) ∈ dot_S200x512_S512x512_S200x512_1_0_0_1_n_n.lhsNonContracting by decide)]
  rfl
theorem lin_lhs_1 (i : S200x512.Idx) (q : dot_S200x512_S512x512_S200x512_1_0_0_1_n_n.contr.Idx) :
    (dot_S200x512_S512x512_S200x512_1_0_0_1_n_n.lhsIdx i q 1).val = (q ⟨0, by decide⟩).val :=
  dot_S200x512_S512x512_S200x512_1_0_0_1_n_n.lhsIdx_val_of_single rfl i q
theorem lin_rhs_0 (i : S200x512.Idx) (q : dot_S200x512_S512x512_S200x512_1_0_0_1_n_n.contr.Idx) :
    (dot_S200x512_S512x512_S200x512_1_0_0_1_n_n.rhsIdx i q 0).val = (q ⟨0, by decide⟩).val :=
  dot_S200x512_S512x512_S200x512_1_0_0_1_n_n.rhsIdx_val_of_single rfl i q
theorem lin_rhs_1 (i : S200x512.Idx) (q : dot_S200x512_S512x512_S200x512_1_0_0_1_n_n.contr.Idx) :
    (dot_S200x512_S512x512_S200x512_1_0_0_1_n_n.rhsIdx i q 1).val = (i 1).val := by
  unfold DotDims.rhsIdx
  rw [dif_neg (show ¬(1 : Fin S512x512.rank) ∈ dot_S200x512_S512x512_S200x512_1_0_0_1_n_n.rhsBatch by decide),
    dif_pos (show (1 : Fin S512x512.rank) ∈ dot_S200x512_S512x512_S200x512_1_0_0_1_n_n.rhsNonContracting by decide)]
  rfl

/-- The second product into the zero accumulator, read at `(p, c)`: row `p` of the left factor against column `c` of the right one. -/
theorem lin_apply (lhs : FVec Ideal S200x512 .f32) (rhs : FVec Ideal S512x512 .f32) (p : Fin 200) (c : Fin 512) :
    matmul (F := Ideal) dot_S200x512_S512x512_S200x512_1_0_0_1_n_n none lhs rhs (constant S200x512 .f32 0x00000000#32) (ix2 p c)
      = ∑ k : Fin 512, lhs (ix2 p k) * rhs (ix2 k c) := by
  refine (Ideal.matmul_constant_zero_apply dot_S200x512_S512x512_S200x512_1_0_0_1_n_n none lhs rhs (ix2 p c)).trans ?_
  rw [← Equiv.sum_comp (ValueIdx.contrEquiv1 dot_S200x512_S512x512_S200x512_1_0_0_1_n_n 512 rfl rfl).symm]
  refine Finset.sum_congr rfl fun k _ => ?_
  have hk := ValueIdx.contrEquiv1_symm_val dot_S200x512_S512x512_S200x512_1_0_0_1_n_n 512 rfl rfl k
  have el : dot_S200x512_S512x512_S200x512_1_0_0_1_n_n.lhsIdx (ix2 p c) ((ValueIdx.contrEquiv1 dot_S200x512_S512x512_S200x512_1_0_0_1_n_n 512 rfl rfl).symm k) = ix2 p k :=
    funext fun a => Fin.ext (by
      match a with
      | ⟨0, _⟩ => exact lin_lhs_0 _ _
      | ⟨1, _⟩ => exact (lin_lhs_1 _ _).trans hk)
  have er : dot_S200x512_S512x512_S200x512_1_0_0_1_n_n.rhsIdx (ix2 p c) ((ValueIdx.contrEquiv1 dot_S200x512_S512x512_S200x512_1_0_0_1_n_n 512 rfl rfl).symm k) = ix2 k c :=
    funext fun a => Fin.ext (by
      match a with
      | ⟨0, _⟩ => exact (lin_rhs_0 _ _).trans hk
      | ⟨1, _⟩ => exact lin_rhs_1 _ _)
  rw [el, er]

end Products

section Stages

/-- The lane sum read at row `p`: the sum of that row. -/
theorem rowsum_apply (src : FVec Ideal S200x512 .f32) (hφ : FKind.Formats .f32)
    (hacc : (0x00000000#32 : BitVec FTy.f32.bits) = FKind.add.neutral .f32 hφ) (p : Fin 200) :
    multiReduction (F := Ideal) .add [1] S200 src 0x00000000#32 reduces_S200x512_S200 hφ hacc (ix1 p)
      = ∑ k : Fin 512, src (ix2 p k) := by
  refine (Ideal.multiReduction_add_single src _ reduces_S200x512_S200 hφ hacc (ix1 p)).trans ?_
  refine Finset.sum_congr rfl fun k _ => ?_
  exact congrArg src (funext fun a => Fin.ext (by
    match a with
    | ⟨0, _⟩ => rfl
    | ⟨1, _⟩ => rfl))

/-- The gather stage: the first product plus the block's own rows, read at `(p, c)`. -/
theorem agg_stage_apply (v0 : FVec Ideal S200x10000 .f32) (v1 : FVec Ideal S10000x512 .f32) (v5 : FVec Ideal S200x512 .f32)
    (p : Fin 200) (c : Fin 512) :
    addf (F := Ideal) (matmul (F := Ideal) dot_S200x10000_S10000x512_S200x512_1_0_0_1_n_n none v0 v1
        (constant S200x512 .f32 0x00000000#32)) v5 (ix2 p c)
      = Cert.Sage.gather (fun k : Fin 10000 => v0 (ix2 p k)) (fun (k : Fin 10000) (c : Fin 512) => v1 (ix2 k c))
          (fun c : Fin 512 => v5 (ix2 p c)) c := by
  refine (addf_apply _ _ _).trans ?_
  unfold Cert.Sage.gather
  exact congrArg (· + v5 (ix2 p c)) (agg_apply v0 v1 p c)

/-- The linear stage: the second product, the bias row broadcast over the block, and the clamp at zero, read at `(p, j)`. -/
theorem act_stage_apply (g : FVec Ideal S200x512 .f32) (v7 : FVec Ideal S512x512 .f32) (v10 : FVec Ideal S1x512 .f32)
    (p : Fin 200) (j : Fin 512) :
    maximumf (F := Ideal)
        (addf (F := Ideal)
          (matmul (F := Ideal) dot_S200x512_S512x512_S200x512_1_0_0_1_n_n none g
            (shapeCast S512x512 v7 shapeCasts_S512x512_S512x512) (constant S200x512 .f32 0x00000000#32))
          (broadcastTo S200x512 (shapeCast S1x512 v10 shapeCasts_S1x512_S1x512) broadcasts_S1x512_S200x512))
        (broadcast S200x512 (Scalar.ofBits (F := Ideal) .f32 0x00000000#32)) (ix2 p j)
      = Cert.Sage.dense (fun c : Fin 512 => g (ix2 p c)) (fun (c : Fin 512) (j : Fin 512) => v7 (ix2 c j))
          (fun j : Fin 512 => v10 (ix2 (0 : Fin 1) j)) j := by
  rw [shapeCast_self, shapeCast_self]
  refine (maximumf_apply _ _ _).trans ?_
  unfold Cert.Sage.dense
  have hz : broadcast S200x512 (Scalar.ofBits (F := Ideal) .f32 0x00000000#32) (ix2 p j) = 0 :=
    Ideal.ofBits_zero_f32
  rw [hz]
  refine congrArg (max · 0) ?_
  refine (addf_apply _ _ _).trans ?_
  rw [broadcastTo_1b_ab_apply]
  exact congrArg (· + v10 (ix2 (0 : Fin 1) j)) (lin_apply g v7 p j)

/-- The normalising stage, read at `(p, q)`: the row's entry over the row's Euclidean norm plus the offset. -/
theorem unit_stage_apply (h : FVec Ideal S200x512 .f32) (hφ : FKind.Formats .f32)
    (hacc : (0x00000000#32 : BitVec FTy.f32.bits) = FKind.add.neutral .f32 hφ) (p : Fin 200) (q : Fin 512) :
    divf (F := Ideal) h
        (broadcastTo S200x512
          (addf (F := Ideal)
            (sqrt (F := Ideal) (shapeCast S200x1
              (multiReduction (F := Ideal) .add [1] S200 (mulf (F := Ideal) h h) 0x00000000#32 reduces_S200x512_S200 hφ hacc)
              shapeCasts_S200_S200x1))
            (broadcast S200x1 (Scalar.ofBits (F := Ideal) .f32 0x33D6BF95#32)))
          broadcasts_S200x1_S200x512) (ix2 p q)
      = Cert.Sage.unit (fun j : Fin 512 => h (ix2 p j)) q := by
  refine (divf_apply _ _ _).trans ?_
  unfold Cert.Sage.unit
  refine congrArg (Ideal.div (h (ix2 p q))) ?_
  refine (broadcastTo_a1_ab_apply _ _ p q).trans ?_
  refine (addf_apply _ _ _).trans ?_
  refine congrArg (· + Ideal.ofBits .f32 0x33D6BF95#32) ?_
  show Ideal.sqrt _ = Ideal.sqrt _
  refine congrArg Ideal.sqrt ?_
  refine (shapeCast_a_a1_apply _ _ p (0 : Fin 1)).trans ?_
  refine (rowsum_apply _ hφ hacc p).trans ?_
  rfl

end Stages

/-- What the block's body stores, read at row `p` and feature `q`: the layer on that node. -/
theorem pay_apply (v0 : Vec Ideal S200x10000 .f32) (v1 : Vec Ideal S10000x512 .f32) (v5 : Vec Ideal S200x512 .f32)
    (v7 : Vec Ideal S512x512 .f32) (v10 : Vec Ideal S1x512 .f32) (p : Fin 200) (q : Fin 512) :
    k0_pay1 (F := Ideal) v0 v1 v5 v7 v10 (ix2 p q)
      = Cert.Sage.unit (Cert.Sage.dense
          (Cert.Sage.gather (fun k : Fin 10000 => v0 (ix2 p k)) (fun (k : Fin 10000) (c : Fin 512) => v1 (ix2 k c))
            (fun c : Fin 512 => v5 (ix2 p c)))
          (fun (c : Fin 512) (j : Fin 512) => v7 (ix2 c j)) (fun j : Fin 512 => v10 (ix2 (0 : Fin 1) j))) q := by
  unfold k0_pay1
  refine (unit_stage_apply _ _ _ p q).trans ?_
  refine congrArg (fun h => Cert.Sage.unit h q) (funext fun j => ?_)
  refine (act_stage_apply _ v7 v10 p j).trans ?_
  refine congrArg (fun g => Cert.Sage.dense g _ _ j) (funext fun c => ?_)
  exact agg_stage_apply v0 v1 v5 p c

end Cert.KernelIdeal.BlockValue

end
-- ==== Proof.ArrayLayer.lean ====
/-
  From blocks to the whole result array.

  At grid point `t` the kernel writes back its output block: rows `200 t … 200 t + 199` of the result. What the body
  left there, read at row `p` and feature `q`, is the layer on node `200 t + p`: the body's arithmetic of the blocks is
  the layer on one node (the block-level lemma), and each block entry it reads is the entry of an argument array the
  layer names — the node's row of edge weights, all the features, the node's own row of the features, the linear map
  read output-major, the bias. So what point `t` writes back is block `t` of the one array `Cert.Sage.G` of the four
  arguments (`written_eq`). The 50 blocks of 200 rows cover the 10000 rows — row `r` lies in block `r / 200` —, so the
  result array ends holding `G` of the arguments (`result_eq`), and the kernel's run ends with the result at `G` and the
  arguments unchanged (`run`).
-/
import proofs.«180947_g8117488189613_cont_9to1_m_843_17_alg».proof.Proof.Blocks
import proofs.«180947_g8117488189613_cont_9to1_m_843_17_alg».proof.Proof.BlockLayer
import proofs.«180947_g8117488189613_cont_9to1_m_843_17_alg».proof.Proof.Sage
import proofs.«180947_g8117488189613_cont_9to1_m_843_17_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Idealize.ShloMosaic.ValueIdx

variable (m : (ℓ : Loc nD τ sig) → Buf (Elt Ideal) ℓ) (ρ : Dev nD → PrngReg)

/-- The layer of the four argument arrays as launched, on core `c`. -/
abbrev result (c : Dev nD) : S10000x512.Idx → EReal :=
  Cert.Sage.G (m ((c : Thread nD τ).loc main_arg0)) (m ((c : Thread nD τ).loc main_arg1))
    (m ((c : Thread nD τ).loc main_arg2)) (m ((c : Thread nD τ).loc main_arg3))

/-- What the body leaves at point `t`, at row `p` and feature `q`, is the layer on node `200 t + p`. -/
theorem left_apply (c : Dev nD) (t : Fin cfg0.N) (p : Fin 200) (q : Fin 512) (r : Fin 10000)
    (hr : r.val = 200 * t.val + p.val) :
    k0_pay1 (F := Ideal) (iblk m c 0 t) (iblk m c 1 t) (PieceValue.ownRows (grid0.coords t) (iblk m c 1 t))
        (iblk m c 2 t) (iblk m c 3 t) (ix2 p q)
      = result m c (ix2 r q) := by
  refine (BlockValue.pay_apply (iblk m c 0 t) (iblk m c 1 t) (PieceValue.ownRows (grid0.coords t) (iblk m c 1 t))
    (iblk m c 2 t) (iblk m c 3 t) p q).trans ?_
  show _ = Cert.Sage.layer (m ((c : Thread nD τ).loc main_arg0)) (m ((c : Thread nD τ).loc main_arg1))
    (m ((c : Thread nD τ).loc main_arg2)) (m ((c : Thread nD τ).loc main_arg3)) r q
  unfold Cert.Sage.layer
  have h0 : (fun k : Fin 10000 => (iblk m c 0 t : Vec Ideal S200x10000 .f32) (ix2 p k))
      = fun k : Fin 10000 => m ((c : Thread nD τ).loc main_arg1) (ix2 r k) :=
    funext fun k => BlockReads.edges_apply m c t p k r hr
  have h1 : (fun (k : Fin 10000) (c' : Fin 512) => (iblk m c 1 t : Vec Ideal S10000x512 .f32) (ix2 k c'))
      = fun (k : Fin 10000) (c' : Fin 512) => m ((c : Thread nD τ).loc main_arg0) (ix2 k c') :=
    funext fun k => funext fun c' => BlockReads.feats_apply m c t k c'
  have h5 : (fun c' : Fin 512 => PieceValue.ownRows (grid0.coords t) (iblk m c 1 t : Vec Ideal S10000x512 .f32) (ix2 p c'))
      = fun c' : Fin 512 => m ((c : Thread nD τ).loc main_arg0) (ix2 r c') :=
    funext fun c' => BlockReads.own_apply m c t p c' r hr
  have h2 : (fun (c' : Fin 512) (j : Fin 512) => (iblk m c 2 t : Vec Ideal S512x512 .f32) (ix2 c' j))
      = fun (c' : Fin 512) (j : Fin 512) => m ((c : Thread nD τ).loc main_arg2) (ix2 j c') :=
    funext fun c' => funext fun j => BlockReads.linmap_apply m c t c' j
  have h3 : (fun j : Fin 512 => (iblk m c 3 t : Vec Ideal S1x512 .f32) (ix2 (0 : Fin 1) j))
      = fun j : Fin 512 => m ((c : Thread nD τ).loc main_arg3) (ix1 j) :=
    funext fun j => BlockReads.bias_apply m c t j
  rw [h0, h1, h5, h2, h3]

/-- WHAT POINT `t` WRITES BACK is block `t` of the layer of the argument arrays. -/
theorem written_eq (c : Dev nD) (t : Fin cfg0.N) :
    (dats m 0 c).flushed 4 t = ((cfg0.win 4).blk t).view.read (Elt Ideal) (result m c) := by
  rw [Cert.KernelIdeal.Value.flushed4_A, PieceValue.left_eq]
  funext j
  obtain ⟨p, q, rfl⟩ : ∃ (p : Fin 200) (q : Fin 512), j = ix2 p q := ⟨j 0, j 1, eq_ix2 j⟩
  have hN : cfg0.N = 50 := N_0
  have ht : t.val < 50 := hN ▸ t.isLt
  have hr : 200 * t.val + p.val < 10000 := by have := p.isLt; omega
  show k0_pay1 (F := Ideal) (iblk m c 0 t) (iblk m c 1 t) (PieceValue.ownRows (grid0.coords t) (iblk m c 1 t))
      (iblk m c 2 t) (iblk m c 3 t) (ix2 p q) = result m c (((cfg0.win 4).blk t).view.emb (ix2 p q))
  rw [BlockReads.out_emb t p q ⟨200 * t.val + p.val, hr⟩ rfl]
  exact left_apply m c t p q ⟨200 * t.val + p.val, hr⟩ rfl

/-- An index of the result array is in point `t`'s block iff each coordinate is in the block's range on its axis. -/
theorem mem_block (t : Fin cfg0.N) (i : S10000x512.Idx) :
    i ∈ ((cfg0.win 4).blk t).view.set ↔ ∀ a : Fin 2, win0_4.index t a * S200x512.size a ≤ (i a).val ∧ (i a).val < win0_4.index t a * S200x512.size a + S200x512.size a := by
  show i ∈ ((View.whole main_v0).slice (win0_4.rect t)).set ↔ _
  rw [View.set_slice_whole, Rect.mem_set_unit]
  exact Iff.rfl

/-- Every index of the result array lies in some point's block: row `r` in block `r / 200`. -/
theorem covered (i : S10000x512.Idx) :
    ∃ t : Fin cfg0.N, (cfg0.win 4).flush t = true ∧ i ∈ ((cfg0.win 4).blk t).view.set := by
  have hN : cfg0.N = 50 := N_0
  have hi0 : (i 0).val < 10000 := (i 0).isLt
  have hi1 : (i 1).val < 512 := (i 1).isLt
  let t : Fin cfg0.N := ⟨(i 0).val / 200, by rw [hN]; omega⟩
  obtain ⟨-, -, -, -, -, -, -, -, e0, e1, -⟩ := BlockReads.idx_facts t
  have tv : t.val = (i 0).val / 200 := rfl
  refine ⟨t, flush0_4 t, ?_⟩
  rw [mem_block]
  intro a
  match a with
  | ⟨0, _⟩ =>
    show win0_4.index t (0 : Fin 2) * 200 ≤ (i 0).val ∧ (i 0).val < win0_4.index t (0 : Fin 2) * 200 + 200
    rw [e0, tv]; omega
  | ⟨1, _⟩ =>
    show win0_4.index t (1 : Fin 2) * 512 ≤ (i 1).val ∧ (i 1).val < win0_4.index t (1 : Fin 2) * 512 + 512
    rw [e1]; omega

/-- THE RESULT ARRAY after the run is the layer of the argument arrays. -/
theorem result_eq (c : Dev nD) : (dats m 0 c).arrAt 4 cfg0.N = result m c :=
  (dats m 0 c).arrAt_eq_of_cover 4 (result m c) (fun t _ => written_eq m c t) (covered)

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_eq m c), (h c).2⟩)
    (Cert.KernelIdeal.Value.run_blocks m ρ)

end Cert.KernelIdeal.ArrayValue

end
-- ==== Proof.RefLayer.lean ====
/-
  The reference program's result, read index by index, is the layer `Cert.Sage.G` of its four argument arrays, when the
  features and the edge weights are real numbers.
-/
import proofs.«180947_g8117488189613_cont_9to1_m_843_17_alg».proof.Proof.Gen.ReferenceIdeal.Read
import proofs.«180947_g8117488189613_cont_9to1_m_843_17_alg».proof.Proof.Sage
import Idealize.ShloMosaic.PureOps.Ideal.Laws

noncomputable section

namespace Cert.ReferenceIdeal.RefValue

open Cert.ReferenceIdeal Cert.ReferenceIdeal.Read Idealize.ShloMosaic Idealize.ShloMosaic.ValueIdx

/-! ## The identity matrix and the first product -/

/-- The entry of the identity matrix: the two coordinates, written as 32-bit words, are compared, and the bit is read as a
    number. Both coordinates are below `2 ^ 32`, so the words are equal exactly when the coordinates are. -/
theorem eye_apply (r k : Fin 10000) :
    val_main_v5 (F := Ideal) (ix2 r k) = if r = k then (1 : EReal) else 0 := by
  rw [val_main_v5_apply, val_main_v4_apply, val_main_v3_apply, val_main_v0_apply, val_main_v1_apply, val_main_v2_apply,
    val_main_c_apply]
  show (((IntOp.cmpi .eq (IntOp.addi (BitVec.ofNat 32 r.val) 0#32) (BitVec.ofNat 32 k.val)).toNat : ℝ) : EReal) = _
  have hadd : IntOp.addi (BitVec.ofNat 32 r.val) 0#32 = BitVec.ofNat 32 r.val := by
    unfold IntOp.addi
    exact BitVec.add_zero _
  rw [hadd]
  by_cases hrk : r = k
  · subst hrk
    rw [if_pos rfl]
    have hc : IntOp.cmpi .eq (BitVec.ofNat 32 r.val) (BitVec.ofNat 32 r.val) = 1#1 := by
      simp [IntOp.cmpi]
    rw [hc]
    simp
  · rw [if_neg hrk]
    have hne : BitVec.ofNat 32 r.val ≠ BitVec.ofNat 32 k.val := by
      intro h
      apply hrk
      have h' := congrArg BitVec.toNat h
      rw [BitVec.toNat_ofNat, BitVec.toNat_ofNat] at h'
      have hr := r.isLt
      have hk := k.isLt
      apply Fin.ext
      omega
    have hc : IntOp.cmpi .eq (BitVec.ofNat 32 r.val) (BitVec.ofNat 32 k.val) = 0#1 := by
      have hb : (BitVec.ofNat 32 r.val == BitVec.ofNat 32 k.val) = false := beq_eq_false_iff_ne.mpr hne
      unfold IntOp.cmpi
      show BitVec.ofBool (BitVec.ofNat 32 r.val == BitVec.ofNat 32 k.val) = 0#1
      rw [hb]
      rfl
    rw [hc]
    simp

/-- The edge weights with the identity matrix added, at an entry. -/
theorem v6_apply (x1 : (⟨S10000x10000, .f32⟩ : BufTy).Contents (Elt Ideal)) (r k : Fin 10000) :
    val_main_v6 (F := Ideal) x1 (ix2 r k) = x1 (ix2 r k) + (if r = k then (1 : EReal) else 0) := by
  rw [val_main_v6_apply, eye_apply]
  rfl

/-- The first product at an entry is the gather with the self loop written into the weights. -/
theorem v7_apply (x0 : (⟨S10000x512, .f32⟩ : BufTy).Contents (Elt Ideal)) (x1 : (⟨S10000x10000, .f32⟩ : BufTy).Contents (Elt Ideal))
    (r : Fin 10000) (c : Fin 512) :
    val_main_v7 (F := Ideal) x0 x1 (ix2 r c)
      = Cert.Sage.gatherLoop (fun k : Fin 10000 => x1 (ix2 r k)) (fun (k : Fin 10000) (c : Fin 512) => x0 (ix2 k c)) r c := by
  rw [val_main_v7_apply]
  unfold Cert.Sage.gatherLoop
  refine Finset.sum_congr rfl fun k _ => ?_
  have e1 : lidx_main_v7 (ix2 r c) k = ix2 r k :=
    funext fun a => Fin.ext (by match a with | ⟨0, _⟩ => rfl | ⟨1, _⟩ => rfl)
  have e2 : ridx_main_v7 (ix2 r c) k = ix2 k c :=
    funext fun a => Fin.ext (by match a with | ⟨0, _⟩ => rfl | ⟨1, _⟩ => rfl)
  rw [e1, e2, v6_apply]

/-! ## The linear map, the bias and the clamp -/

/-- The activation at an entry, over whatever the first product is. -/
theorem v13_apply (x0 : (⟨S10000x512, .f32⟩ : BufTy).Contents (Elt Ideal)) (x1 : (⟨S10000x10000, .f32⟩ : BufTy).Contents (Elt Ideal))
    (x2 : (⟨S512x512, .f32⟩ : BufTy).Contents (Elt Ideal)) (x3 : (⟨S512, .f32⟩ : BufTy).Contents (Elt Ideal))
    (r : Fin 10000) (j : Fin 512) :
    val_main_v13 (F := Ideal) x0 x1 x2 x3 (ix2 r j)
      = Cert.Sage.dense (fun c : Fin 512 => val_main_v7 (F := Ideal) x0 x1 (ix2 r c))
          (fun (c : Fin 512) (j : Fin 512) => x2 (ix2 j c)) (fun j : Fin 512 => x3 (ix1 j)) j := by
  rw [val_main_v13_apply, val_main_v12_apply, val_main_v9_apply, val_main_v11_apply, val_main_v10_apply,
    val_main_call0_v0_apply, val_main_call0_cst_apply]
  unfold Cert.Sage.dense
  rw [Ideal.maximumf_def, Ideal.addf_def, Ideal.ofBits_def, Ideal.ofBits_zero_f32]
  have e3 : idx_main_v10 (idx_main_v11 (ix2 r j)) = ix1 j :=
    funext fun a => Fin.ext (by match a with | ⟨0, _⟩ => rfl)
  rw [e3]
  refine congrArg (fun t => max (t + x3 (ix1 j)) 0) (Finset.sum_congr rfl fun k _ => ?_)
  have e1 : lidx_main_v9 (ix2 r j) k = ix2 r k :=
    funext fun a => Fin.ext (by match a with | ⟨0, _⟩ => rfl | ⟨1, _⟩ => rfl)
  have e2 : idx_main_v8 (ridx_main_v9 (ix2 r j) k) = ix2 j k :=
    funext fun a => Fin.ext (by match a with | ⟨0, _⟩ => rfl | ⟨1, _⟩ => rfl)
  rw [val_main_v8_apply, e1, e2]

/-! ## The norm and the quotient -/

/-- The result at an entry: the activation divided by the row's Euclidean norm plus the offset. -/
theorem v18_apply (x0 : (⟨S10000x512, .f32⟩ : BufTy).Contents (Elt Ideal)) (x1 : (⟨S10000x10000, .f32⟩ : BufTy).Contents (Elt Ideal))
    (x2 : (⟨S512x512, .f32⟩ : BufTy).Contents (Elt Ideal)) (x3 : (⟨S512, .f32⟩ : BufTy).Contents (Elt Ideal))
    (r : Fin 10000) (q : Fin 512) :
    val_main_v18 (F := Ideal) x0 x1 x2 x3 (ix2 r q)
      = Cert.Sage.unit (fun j : Fin 512 => val_main_v13 (F := Ideal) x0 x1 x2 x3 (ix2 r j)) q := by
  rw [val_main_v18_apply, val_main_v17_apply, val_main_v16_apply, val_main_v14_apply, val_main_call1_v2_apply,
    val_main_call1_v1_apply, val_main_v15_apply, val_main_cst_apply, val_main_call1_cst_apply]
  unfold Cert.Sage.unit
  rw [Ideal.hostDivf_def, Ideal.addf_def, Ideal.hostUnary_sqrt_def, Ideal.ofBits_def, Ideal.ofBits_def,
    Ideal.ofBits_zero_f32, zero_add]
  refine congrArg (fun t => Ideal.div (val_main_v13 (F := Ideal) x0 x1 x2 x3 (ix2 r q))
    (Ideal.sqrt t + Ideal.ofBits .f32 0x33D6BF95#32)) (Finset.sum_congr rfl fun k _ => ?_)
  have e1 : idx_main_call1_v1 (idx_main_call1_v2 (idx_main_v17 (ix2 r q))) k = ix2 r k :=
    funext fun a => Fin.ext (by match a with | ⟨0, _⟩ => rfl | ⟨1, _⟩ => rfl)
  rw [val_main_call1_v0_apply, e1, Ideal.mulf_def]

theorem ref_eq (x0 : (⟨S10000x512, .f32⟩ : BufTy).Contents (Elt Ideal)) (x1 : (⟨S10000x10000, .f32⟩ : BufTy).Contents (Elt Ideal))
    (x2 : (⟨S512x512, .f32⟩ : BufTy).Contents (Elt Ideal)) (x3 : (⟨S512, .f32⟩ : BufTy).Contents (Elt Ideal))
    (h0 : ∀ i, ∃ u : ℝ, x0 i = (u : EReal)) (h1 : ∀ i, ∃ u : ℝ, x1 i = (u : EReal)) :
    val_main_v18 (F := Ideal) x0 x1 x2 x3 = Cert.Sage.G x0 x1 x2 x3 := by
  funext i
  obtain ⟨r, q, rfl⟩ : ∃ (r : Fin 10000) (q : Fin 512), i = ix2 r q := ⟨i 0, i 1, eq_ix2 i⟩
  rw [Cert.Sage.G_ix2, v18_apply]
  unfold Cert.Sage.layer
  refine congrArg (fun h => Cert.Sage.unit h q) (funext fun j => ?_)
  rw [v13_apply]
  refine congrArg (fun g => Cert.Sage.dense g (fun (c : Fin 512) (j : Fin 512) => x2 (ix2 j c))
    (fun j : Fin 512 => x3 (ix1 j)) j) (funext fun c => ?_)
  rw [v7_apply]
  exact Cert.Sage.gather_of_loop _ _ r c (fun k => h1 (ix2 r k)) (fun k c => h0 (ix2 k c))

end Cert.ReferenceIdeal.RefValue

end
-- ==== Proof.FiniteArgs.lean ====
/-
  Under the precondition every entry of the feature array and of the edge-weight array is a real number.
-/
import proofs.«180947_g8117488189613_cont_9to1_m_843_17_alg».proof.Pre_finite_inputs
import Idealize.ShloMosaic.PureOps.Ideal
import Idealize.ShloMosaic.Lib.ValueIdx
import Idealize.ShloMosaic.Lib.ReduceAll

noncomputable section

namespace Cert.FiniteArgs

open Cert.Pre_finite_inputs Idealize.ShloMosaic Idealize.ShloMosaic.ValueIdx

/-- The single-precision pattern with all exponent bits set and no fraction bit is `+∞`. -/
theorem inf_eq_top : Ideal.ofBits .f32 0x7F800000#32 = ⊤ := by
  simp [Ideal.ofBits, Ideal.ieee]

/-- An extended real whose absolute value `max x (-x)` is strictly below `+∞` is a real number: at `⊥` and at `⊤`
    the absolute value is `⊤`, which is not below itself. -/
theorem real_of_abs_lt (x : EReal)
    (h : Ideal.cmp .olt (max x (-x)) (Ideal.ofBits .f32 0x7F800000#32) = 1#1) : ∃ u : ℝ, x = (u : EReal) := by
  rw [inf_eq_top] at h
  induction x using EReal.rec with
  | bot => simp [Ideal.cmp] at h
  | coe u => exact ⟨u, rfl⟩
  | top => simp [Ideal.cmp] at h

/-- The scalar shape has one index. -/
local instance : Subsingleton S_.Idx := ⟨fun a b => funext fun d => d.elim0⟩

theorem real_of_pre [Cert.Pre_finite_inputs.Facts] (x0 : FVec Ideal S10000x512 .f32) (x1 : FVec Ideal S10000x10000 .f32)
    (x2 : FVec Ideal S512x512 .f32) (x3 : FVec Ideal S512 .f32)
    (h : Cert.Pre_finite_inputs.fn (F := Ideal) x0 x1 x2 x3 = fun _ => 1#1) :
    (∀ i, ∃ u : ℝ, x0 i = (u : EReal)) ∧ (∀ i, ∃ u : ℝ, x1 i = (u : EReal)) := by
  have h0 := congrFun h ix0
  dsimp only [Cert.Pre_finite_inputs.fn, Cert.Pre_finite_inputs.fn_part1, andi] at h0
  obtain ⟨⟨⟨hx0, hx1⟩, -⟩, -⟩ :=
    (IntOp.andi_eq_one.1 h0).imp_left fun h' => (IntOp.andi_eq_one.1 h').imp_left fun h'' => IntOp.andi_eq_one.1 h''
  refine ⟨fun i => ?_, fun i => ?_⟩
  · have hi := Host.reduce_andi_all _ _ _ _ _ hx0 i
    exact real_of_abs_lt (x0 i) hi
  · have hi := Host.reduce_andi_all _ _ _ _ _ hx1 i
    exact real_of_abs_lt (x1 i) hi

end Cert.FiniteArgs

end
-- ==== Proof.lean ====
/-
  A graph-convolution layer with self loops, computed two ways, gives one result on the extended reals.

  Both programs take node features `x : [10000, 512]`, edge weights `adj : [10000, 10000]`, a linear map
  `W : [512, 512]` and a bias `b : [512]`, and return `h / (‖h‖ + ε)` row by row, where
  `h = max ((adj + I) x Wᵀ + b) 0`, `‖h‖` is the Euclidean norm of a row of `h` and `ε` the single-precision
  number nearest to 10⁻⁷. The reference builds `adj + I` and multiplies; the kernel never builds the identity: over 50
  blocks of 200 nodes it computes `adj x` for the block, adds the block's own rows of `x`, and finishes the layer on
  the block. Read on the extended reals every operation is exact, so the two differ only in
  `∑ k, (adj r k + [r = k]) * x k c` against `∑ k, adj r k * x k c + x r c`; these agree when the weights and the
  features are real numbers, which the precondition (every input finite) provides, and need not agree at the infinities.

  The pieces: `Cert.Sage.G`, the layer as one function of the four arrays, with that one law; the reference's result is
  `G` of its arguments when they are real; the precondition makes them real; the kernel's result array is `G` of its
  arguments, block by block; the runs of the two programs and the frames of all three are the generated ones. The
  kernel's idealization changed nothing in its text, so that claim is trivial.
-/
import proofs.«180947_g8117488189613_cont_9to1_m_843_17_alg».proof.Defs
import proofs.«180947_g8117488189613_cont_9to1_m_843_17_alg».proof.Proof.Gen.Kernel
import proofs.«180947_g8117488189613_cont_9to1_m_843_17_alg».proof.Proof.Gen.Kernel.Skeleton
import proofs.«180947_g8117488189613_cont_9to1_m_843_17_alg».proof.Proof.Gen.Kernel.Launch
import proofs.«180947_g8117488189613_cont_9to1_m_843_17_alg».proof.Proof.Gen.Kernel.Points
import proofs.«180947_g8117488189613_cont_9to1_m_843_17_alg».proof.Proof.Gen.Kernel.Frame
import proofs.«180947_g8117488189613_cont_9to1_m_843_17_alg».proof.Proof.Gen.KernelIdeal
import proofs.«180947_g8117488189613_cont_9to1_m_843_17_alg».proof.Proof.Gen.KernelIdeal.Skeleton
import proofs.«180947_g8117488189613_cont_9to1_m_843_17_alg».proof.Proof.Gen.KernelIdeal.Launch
import proofs.«180947_g8117488189613_cont_9to1_m_843_17_alg».proof.Proof.Gen.KernelIdeal.Points
import proofs.«180947_g8117488189613_cont_9to1_m_843_17_alg».proof.Proof.Gen.KernelIdeal.Frame
import proofs.«180947_g8117488189613_cont_9to1_m_843_17_alg».proof.Proof.Gen.ReferenceIdeal
import proofs.«180947_g8117488189613_cont_9to1_m_843_17_alg».proof.Proof.Gen.Pre_finite_inputs
import proofs.«180947_g8117488189613_cont_9to1_m_843_17_alg».proof.Proof.Gen.KernelIdeal.Value
import proofs.«180947_g8117488189613_cont_9to1_m_843_17_alg».proof.Proof.Gen.ReferenceIdeal.Run
import proofs.«180947_g8117488189613_cont_9to1_m_843_17_alg».proof.Proof.Gen.ReferenceIdeal.Read
import proofs.«180947_g8117488189613_cont_9to1_m_843_17_alg».proof.Proof.ArrayLayer
import proofs.«180947_g8117488189613_cont_9to1_m_843_17_alg».proof.Proof.RefLayer
import proofs.«180947_g8117488189613_cont_9to1_m_843_17_alg».proof.Proof.FiniteArgs
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of array operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From memories that agree on the four arguments, all finite, the kernel's result array ends at the layer `G` of
    the arguments block by block, and the reference's at its composed term, which is `G` of real arguments. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.FiniteArgs.real_of_pre _ _ _ _ (hpre c)
  rw [Cert.ReferenceIdeal.Read.val_main_v18_eq, (hagree c).1, (hagree c).2.1, (hagree c).2.2.1, (hagree c).2.2.2]
  exact Cert.ReferenceIdeal.RefValue.ref_eq _ _ _ _ h0 h1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
